-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S10000x128 : Shape := ⟨2, ![10000, 128]⟩

abbrev nBuf : Space → Nat
  | .hbm => 24
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S128x128, .f32⟩
  | .hbm, ⟨22, _⟩ => ⟨S1x128, .f32⟩
  | .hbm, ⟨23, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Block.lean ====
/-
  One block of the fused layer, at the ideal values.

  The body adds the block of node features to the block of aggregated neighbour features, multiplies the sum by
  the transposed weight matrix — a matrix product into a zero accumulator — and adds the bias row to every row.
  Read at row p and column q of the block this is
      ∑ k, (x[p,k] + a[p,k]) · wt[k,q]  +  b[0,q],
  a sum over the 128 feature channels. Nothing here needs the entries to be finite: the product into the zero
  accumulator is the bare sum, and no factor is moved across it.
-/
import proofs.«134307_j68032281968991_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Block

open Cert.KernelIdeal Cert.KernelIdeal.Gen

/-! ## The operand indices of the block product -/

/-- The left operand is read in the output's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The left operand is read in the contracted channel's column. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The right operand is read in the contracted channel's row. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- The right operand is read in the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-! ## The product and the body's stored value at an entry -/

/-- The block product into the zero accumulator, at row p and column q: the sum over the channels of the left
    operand's row p times the right operand's column q. -/
theorem product_apply (l : FVec Ideal S10000x128 .f32) (r : FVec Ideal S128x128 .f32) (p : Fin 10000) (q : Fin 128) :
    matmul dot_S10000x128_S128x128_S10000x128_1_0_0_1_n_n (some .fp32) l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- What the body stores, at row p and column q of the block. -/
theorem stored_apply (x a : Vec Ideal S10000x128 .f32) (wt : Vec Ideal S128x128 .f32) (b : Vec Ideal S1x128 .f32)
    (p : Fin 10000) (q : Fin 128) :
    k0_pay1 (F := Ideal) x a wt b (ix2 p q)
      = (∑ k : Fin 128, (x (ix2 p k) + a (ix2 p k)) * wt (ix2 k q)) + b (ix2 (0 : Fin 1) q) := by
  unfold k0_pay1
  simp only [shapeCast_self]
  show (matmul dot_S10000x128_S128x128_S10000x128_1_0_0_1_n_n (some .fp32) (addf x a) wt (constant (F := Ideal) S10000x128 .f32 0x00000000#32)) (ix2 p q)
      + (broadcastTo S10000x128 b broadcasts_S1x128_S10000x128) (ix2 p q) = _
  rw [product_apply, broadcastTo_apply b broadcasts_S1x128_S10000x128 (ix2 p q) (ix2 (0 : Fin 1) q) (fun d => by
    match d with
    | ⟨0, _⟩ => show 0 = if (1 : Nat) = 1 then 0 else p.val; rw [if_pos rfl]
    | ⟨1, _⟩ => show q.val = if (128 : Nat) = 1 then 0 else q.val; rw [if_neg (by decide)])]
  rfl

end Cert.KernelIdeal.Block

end
-- ==== Proof.Layer.lean ====
/-
  The layer, as one function of its arrays.

  A graph-isomorphism layer with zero epsilon: every node's features are added to the sum of its in-neighbours'
  features, and the result goes through a linear map, out = (x + agg) · Wᵀ + b. Entry (p, q) of the output is
      ∑ k, (x[p,k] + agg[p,k]) · W[q,k]  +  b[q],
  a sum over the 128 input channels. The aggregate agg is carried as an array of its own: both programs compute
  it by the same gather and scatter-add of the same arguments, and nothing here looks inside it.
-/
import Idealize.ShloMosaic.Lib.ValueIdx

noncomputable section

open Idealize.ShloMosaic Idealize.ShloMosaic.ValueIdx
open scoped BigOperators

namespace Cert.Layer

/-- Node features, and the layer's output: 100000 nodes, 128 channels. -/
abbrev Nodes : Shape := ⟨2, ![100000, 128]⟩
/-- The weight matrix, output channel by input channel. -/
abbrev Weights : Shape := ⟨2, ![128, 128]⟩
/-- The bias, one entry per output channel. -/
abbrev Bias : Shape := ⟨1, ![128]⟩

/-- Entry (p, q) of the layer's output. -/
def entry (x agg : Nodes.Idx → EReal) (w : Weights.Idx → EReal) (b : Bias.Idx → EReal) (p : Fin 100000) (q : Fin 128) : EReal :=
  (∑ k : Fin 128, (x (ix2 p k) + agg (ix2 p k)) * w (ix2 q k)) + b (ix1 q)

/-- The layer's output array. -/
def out (x agg : Nodes.Idx → EReal) (w : Weights.Idx → EReal) (b : Bias.Idx → EReal) : Nodes.Idx → EReal :=
  fun i => entry x agg w b (i 0) (i 1)

theorem out_apply (x agg : Nodes.Idx → EReal) (w : Weights.Idx → EReal) (b : Bias.Idx → EReal) (p : Fin 100000) (q : Fin 128) :
    out x agg w b (ix2 p q) = entry x agg w b p q := rfl

end Cert.Layer

end
-- ==== Proof.KernelValue.lean ====
/-
  The kernel's result array is the layer of the arguments.

  The call cuts the 100000 node rows into ten blocks of 10000 rows; grid point t is handed rows 10000·t …
  10000·t + 9999 of the node features and of the aggregate, the whole transposed weight matrix and the whole bias
  row, and writes back rows 10000·t … 10000·t + 9999 of the result. Before the call the program gathers the source
  rows of every edge and scatter-adds them into the destination rows (the aggregate), transposes the weights and
  lays the bias out as a one-row matrix. So the entry the point that owns row P writes at (P, q) is
      ∑ k, (x[P,k] + agg[P,k]) · W[q,k] + b[q],
  the layer's entry; the ten blocks tile the array, so the array ends holding the layer's output.
-/
import proofs.«134307_j68032281968991_2_alg».proof.Proof.Gen.KernelIdeal.Value
import proofs.«134307_j68032281968991_2_alg».proof.Proof.Block
import proofs.«134307_j68032281968991_2_alg».proof.Proof.Layer
import Idealize.ShloMosaic.Lib.StableHlo.Run
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)
open scoped BigOperators

namespace Cert.KernelIdeal.Hand

open Cert.KernelIdeal Cert.KernelIdeal.Gen Cert.KernelIdeal.Value

/-! ## Before the call: the aggregate, the transposed weights, the bias row -/

/-- The aggregate as the program computes it: the source ids (row 0 of the edge list, a negative id wrapped
    round by the number of nodes) gather rows of the features, and those rows are scatter-added into a zero array
    along the destination ids (row 1 of the edge list). Named once and never opened. -/
def aggregate (x0 : (⟨S100000x128, .f32⟩ : BufTy).Contents (Elt Ideal)) (x1 : (⟨S2x600000, .i32⟩ : BufTy).Contents (Elt Ideal)) :
    (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0
      (shapeCast _ (extractStridedSlice S1x600000 ![1, 0] x1 slices_S2x600000_S1x600000_1_0) shapeCasts_S1x600000_S600000))
    (Host.gather gather_S100000x128_S600000x1_S600000x128_1_0_n_n_0_1_1128 x0
      (broadcastInDim S600000x1 ![0] bcast_S600000_S600000x1_0
        (select
          (cmpi .slt (shapeCast _ (extractStridedSlice S1x600000 ![0, 0] x1 slices_S2x600000_S1x600000_0_0) shapeCasts_S1x600000_S600000)
            (broadcastInDim S600000 ![] bcast_S_S600000 (constantI S_ 32 0#32)))
          (addi (shapeCast _ (extractStridedSlice S1x600000 ![0, 0] x1 slices_S2x600000_S1x600000_0_0) shapeCasts_S1x600000_S600000)
            (broadcastInDim S600000 ![] bcast_S_S600000 (constantI S_ 32 100000#32)))
          (shapeCast _ (extractStridedSlice S1x600000 ![0, 0] x1 slices_S2x600000_S1x600000_0_0) shapeCasts_S1x600000_S600000))))

variable (m : (ℓ : Loc nD τ sig) → Buf (Elt Ideal) ℓ) (ρ : Dev nD → PrngReg)

/-- The call finds the aggregate of the feature and edge arguments in its second operand. -/
theorem agg_eq (c : Dev nD) : (V m c main_v13 : S100000x128.Idx → EReal)
    = aggregate (m ((c : Thread nD τ).loc main_arg0)) (m ((c : Thread nD τ).loc main_arg1)) := by
  unfold aggregate
  dsimp only [Gen.V, Gen.hostOps0]
  after_results <;> rfl

/-- It finds the transposed weight argument in its third operand, -/
theorem wt_eq (c : Dev nD) : (V m c main_v14 : S128x128.Idx → EReal)
    = transpose S128x128 [1, 0] (m ((c : Thread nD τ).loc main_arg2)) transposes_S128x128_S128x128_1_0 := by
  dsimp only [Gen.V, Gen.hostOps0]
  after_results <;> rfl

/-- and the bias argument, as a matrix of one row, in its fourth. -/
theorem brow_eq (c : Dev nD) : (V m c main_v15 : S1x128.Idx → EReal)
    = shapeCast S1x128 (m ((c : Thread nD τ).loc main_arg3)) shapeCasts_S128_S1x128 := by
  dsimp only [Gen.V, Gen.hostOps0]
  after_results <;> rfl

/-! ## The blocks a grid point is handed -/

theorem hz : (![0, 0] : Fin 2 → Nat) = fun _ => 0 := funext fun a => by fin_cases a <;> rfl

/-- The index maps over the ten grid points: the features, the aggregate and the result move down one block of
    rows per point; the weights and the bias stay put. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the feature block at point t is row 10000·t + p of the feature argument. -/
theorem x_read (c : Dev nD) (t : Fin cfg0.N) (p : Fin 10000) (k : Fin 128) (P : Fin 100000) (hP : P.val = t.val * 10000 + p.val) :
    (iblk m c 0 t : Vec Ideal S10000x128 .f32) (ix2 p k)
      = (m ((c : Thread nD τ).loc main_arg0) : S100000x128.Idx → EReal) (ix2 P k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 10000 + 1 * p.val = P.val; rw [e0, hP]; omega
  | ⟨1, _⟩ => show win0_0.index t (1 : Fin 2) * 128 + 1 * k.val = k.val; rw [e1]; omega

/-- Row p of the aggregate's block at point t is row 10000·t + p of the aggregate. -/
theorem agg_read (c : Dev nD) (t : Fin cfg0.N) (p : Fin 10000) (k : Fin 128) (P : Fin 100000) (hP : P.val = t.val * 10000 + p.val) :
    (iblk m c 1 t : Vec Ideal S10000x128 .f32) (ix2 p k)
      = (aggregate (m ((c : Thread nD τ).loc main_arg0)) (m ((c : Thread nD τ).loc main_arg1)) : S100000x128.Idx → EReal) (ix2 P k) := by
  obtain ⟨-, -, e0, e1, -⟩ := idx_facts t
  unfold iblk
  rw [View.read_apply]
  show (V m c main_v13 : S100000x128.Idx → EReal) _ = _
  rw [agg_eq]
  refine congrArg _ (funext fun a => Fin.ext ?_)
  match a with
  | ⟨0, _⟩ => show win0_1.index t (0 : Fin 2) * 10000 + 1 * p.val = P.val; rw [e0, hP]; omega
  | ⟨1, _⟩ => show win0_1.index t (1 : Fin 2) * 128 + 1 * k.val = k.val; rw [e1]; omega

/-- Entry (k, q) of the weight block, at every point, is entry (q, k) of the weight argument. -/
theorem wt_read (c : Dev nD) (t : Fin cfg0.N) (k q : Fin 128) :
    (iblk m c 2 t : Vec Ideal S128x128 .f32) (ix2 k q)
      = (m ((c : Thread nD τ).loc main_arg2) : S128x128.Idx → EReal) (ix2 q k) := by
  obtain ⟨-, -, -, -, e0, e1, -⟩ := idx_facts t
  unfold iblk
  rw [View.read_apply]
  show (V m c main_v14 : S128x128.Idx → EReal) _ = _
  rw [wt_eq]
  refine transpose_apply [1, 0] _ transposes_S128x128_S128x128_1_0 _ (ix2 q k) (fun b => ?_)
  match b with
  | ⟨0, _⟩ => show k.val = win0_2.index t (0 : Fin 2) * 128 + 1 * k.val; rw [e0]; omega
  | ⟨1, _⟩ => show q.val = win0_2.index t (1 : Fin 2) * 128 + 1 * q.val; rw [e1]; omega

/-- Entry q of the bias block's one row, at every point, is entry q of the bias argument. -/
theorem b_read (c : Dev nD) (t : Fin cfg0.N) (q : Fin 128) :
    (iblk m c 3 t : Vec Ideal S1x128 .f32) (ix2 (0 : Fin 1) q)
      = (m ((c : Thread nD τ).loc main_arg3) : S128.Idx → EReal) (ix1 q) := by
  obtain ⟨-, -, -, -, -, -, e0, e1, -⟩ := idx_facts t
  unfold iblk
  rw [View.read_apply]
  show (V m c main_v15 : S1x128.Idx → EReal) _ = _
  rw [brow_eq]
  refine shapeCast_apply _ shapeCasts_S128_S1x128 _ (ix1 q) ?_
  rewrite [Shape.rowMajor_val_two, Shape.rowMajor_val_one]
  show q.val = (win0_3.index t (0 : Fin 2) * 1 + 1 * 0) * 128 + (win0_3.index t (1 : Fin 2) * 128 + 1 * q.val)
  rw [e0, e1]; omega

/-! ## What a point writes back, and the array after the call -/

/-- The layer's output of the arguments on core c. -/
abbrev result (c : Dev nD) : Buf (Elt Ideal) ((c : Thread nD τ).loc main_v16) :=
  Cert.Layer.out (m ((c : Thread nD τ).loc main_arg0))
    (aggregate (m ((c : Thread nD τ).loc main_arg0)) (m ((c : Thread nD τ).loc main_arg1)))
    (m ((c : Thread nD τ).loc main_arg2)) (m ((c : Thread nD τ).loc main_arg3))

/-- Entry (p, q) of what the body stores at point t is the layer's entry (10000·t + p, q). -/
theorem stored_entry (c : Dev nD) (t : Fin cfg0.N) (y : S10000x128.Idx) :
    k0_pay1 (F := Ideal) (iblk m c 0 t) (iblk m c 1 t) (iblk m c 2 t) (iblk m c 3 t) y
      = result m c (((cfg0.win 4).blk t).view.emb y) := by
  obtain ⟨p, q, rfl⟩ : ∃ (p : Fin 10000) (q : Fin 128), y = ix2 p q := ⟨y 0, y 1, eq_ix2 y⟩
  have ht : t.val < 10 := Nat.lt_of_lt_of_eq t.isLt N_0
  obtain ⟨-, -, -, -, -, -, -, -, e0, e1⟩ := idx_facts t
  have hemb : ((cfg0.win 4).blk t).view.emb (ix2 p q) = (ix2 (⟨t.val * 10000 + p.val, by omega⟩ : Fin 100000) q : S100000x128.Idx) := by
    funext a; apply Fin.ext
    match a with
    | ⟨0, _⟩ => show win0_4.index t (0 : Fin 2) * 10000 + 1 * p.val = t.val * 10000 + p.val; rw [e0]; omega
    | ⟨1, _⟩ => show win0_4.index t (1 : Fin 2) * 128 + 1 * q.val = q.val; rw [e1]; omega
  rw [hemb]
  refine (Cert.KernelIdeal.Block.stored_apply (iblk m c 0 t) (iblk m c 1 t) (iblk m c 2 t) (iblk m c 3 t) p q).trans ?_
  show _ = Cert.Layer.entry _ _ _ _ (⟨t.val * 10000 + p.val, by omega⟩ : Fin 100000) q
  unfold Cert.Layer.entry
  rw [b_read m c t q]
  refine congrArg (· + _) (Finset.sum_congr rfl fun k _ => ?_)
  rw [x_read m c t p k ⟨t.val * 10000 + p.val, by omega⟩ rfl, agg_read m c t p k ⟨t.val * 10000 + p.val, by omega⟩ rfl, wt_read m c t k q]

/-- What point t writes back is block t of the layer's output. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz]
  simp only [View.ld_unit_zero (S := S10000x128) hz, View.ld_unit_zero (S := S128x128) hz, View.ld_unit_zero (S := S1x128) hz]
  funext j
  exact stored_entry m c t j

/-- A node row lies in point t's block exactly when it is one of rows 10000·t … 10000·t + 9999. -/
theorem mem_blk (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v16).slice (win0_4.rect t)).set ↔ _
  rw [View.set_slice_whole, Rect.mem_set_unit]
  exact Iff.rfl

/-- Every entry of the result lies in the block of the point numbered by its row's ten-thousands. -/
theorem covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; rw [e0, ht]; omega
  | ⟨1, _⟩ => show win0_4.index t (1 : Fin 2) * 128 ≤ (i 1).val ∧ (i 1).val < win0_4.index t (1 : Fin 2) * 128 + 128; rw [e1]; omega

/-- So the result array ends holding the layer's output of the arguments. -/
theorem final (c : Dev nD) : (dats m 0 c).arrAt 4 cfg0.N = result m c :=
  (dats m 0 c).arrAt_eq_of_cover 4 (result m c) (fun t _ => flushed_eq m c t) covered

/-- The run, read: the result array at the layer's output, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.RefLayer.lean ====
/-
  The reference computes the layer.

  Its last five operations — the sum x + agg, the transposed weights, their contraction over the channels, the
  bias broadcast to every row, the final sum — read at an entry (p, q) are the layer's entry, with agg the
  reference's own scatter-add of the gathered rows, left as it is.
-/
import proofs.«134307_j68032281968991_2_alg».proof.Proof.Gen.ReferenceIdeal.Read
import proofs.«134307_j68032281968991_2_alg».proof.Proof.Layer

noncomputable section

open Idealize.ShloMosaic Idealize.ShloMosaic.ValueIdx
open scoped BigOperators

namespace Cert.ReferenceIdeal.Hand

open Cert.ReferenceIdeal Cert.ReferenceIdeal.Gen Cert.ReferenceIdeal.Read

/-- The reference's result is the layer of its arguments and its own aggregate. -/
theorem result_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) :
    val_main_v19 (F := Ideal) x0 x1 x2 x3 = Cert.Layer.out x0 (val_main_v13 (F := Ideal) x0 x1) x2 x3 := by
  funext i
  obtain ⟨p, q, rfl⟩ : ∃ (p : Fin 100000) (q : Fin 128), i = ix2 p q := ⟨i 0, i 1, eq_ix2 i⟩
  have el : ∀ k : Fin 128, lidx_main_v16 (ix2 p q) k = ix2 p k := fun k =>
    funext fun a => Fin.ext (by match a with | ⟨0, _⟩ => rfl | ⟨1, _⟩ => rfl)
  have er : ∀ k : Fin 128, idx_main_v15 (ridx_main_v16 (ix2 p q) k) = ix2 q k := fun k =>
    funext fun a => Fin.ext (by match a with | ⟨0, _⟩ => rfl | ⟨1, _⟩ => rfl)
  have eb : idx_main_v17 (idx_main_v18 (ix2 p q)) = ix1 q :=
    funext fun a => Fin.ext (by match a with | ⟨0, _⟩ => rfl)
  rw [val_main_v19_apply, val_main_v16_apply, val_main_v18_apply, val_main_v17_apply, eb, Cert.Layer.out_apply]
  simp only [val_main_v14_apply, val_main_v15_apply, el, er, Ideal.addf_def]
  rfl

end Cert.ReferenceIdeal.Hand

end
-- ==== Proof.lean ====
/-
  A graph-isomorphism layer with zero epsilon, out = (x + agg) · Wᵀ + b over 100000 nodes and 128 channels, where
  agg sums over every edge the source node's features into the destination node's row.

  Both programs compute agg on the host by the same gather and scatter-add of the same arguments; it is carried
  through as one array and never opened. The kernel then adds it to the features, multiplies by the transposed
  weights and adds the bias, ten blocks of 10000 node rows at a time; the reference does the same with one
  contraction over the whole array. At the ideal values both results are, entry by entry,
      ∑ k, (x[P,k] + agg[P,k]) · W[q,k] + b[q],
  the same sum of the same terms in the same order, so the equality needs no law of the extended reals and the
  finiteness of the inputs is never used.

  The three frames: the kernel's two are the generated frame runs; the reference's is its generated run with the
  result dropped. No operation of the kernel was rewritten on the way to the ideal reading, so there is nothing
  to preserve beyond the text itself.
-/
import proofs.«134307_j68032281968991_2_alg».proof.Defs
import proofs.«134307_j68032281968991_2_alg».proof.Proof.Gen.Kernel
import proofs.«134307_j68032281968991_2_alg».proof.Proof.Gen.Kernel.Frame
import proofs.«134307_j68032281968991_2_alg».proof.Proof.Gen.KernelIdeal
import proofs.«134307_j68032281968991_2_alg».proof.Proof.Gen.KernelIdeal.Frame
import proofs.«134307_j68032281968991_2_alg».proof.Proof.Gen.KernelIdeal.Value
import proofs.«134307_j68032281968991_2_alg».proof.Proof.Gen.ReferenceIdeal
import proofs.«134307_j68032281968991_2_alg».proof.Proof.Gen.ReferenceIdeal.Run
import proofs.«134307_j68032281968991_2_alg».proof.Proof.Gen.ReferenceIdeal.Read
import proofs.«134307_j68032281968991_2_alg».proof.Proof.Gen.Pre_finite_inputs
import proofs.«134307_j68032281968991_2_alg».proof.Proof.KernelValue
import proofs.«134307_j68032281968991_2_alg».proof.Proof.RefLayer
import Idealize.ShloMosaic.Adequacy
import Idealize.ShloMosaic.Init

noncomputable section

namespace Cert.Proof

open Idealize.ShloMosaic Idealize.ShloMosaic.TcCoe Idealize.SL.Sem

/-- The two programs' aggregates are one function of the feature and edge arrays: the same slices of the edge
    list, the same wrap of negative ids, the same gather, the same scatter-add into zeros. -/
theorem aggregate_same (x0 : (⟨Cert.KernelIdeal.S100000x128, .f32⟩ : BufTy).Contents (Elt Ideal))
    (x1 : (⟨Cert.KernelIdeal.S2x600000, .i32⟩ : BufTy).Contents (Elt Ideal)) :
    Cert.ReferenceIdeal.Read.val_main_v13 (F := Ideal) x0 x1 = Cert.KernelIdeal.Hand.aggregate x0 x1 := by
  unfold Cert.KernelIdeal.Hand.aggregate Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_c Cert.ReferenceIdeal.Read.val_main_c_0
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- Both result arrays end at the layer's output of the arguments: the kernel's block by block, the reference's
    read at an entry through its last five operations, over the one aggregate. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Hand.result_eq,
    (hagree c).1, (hagree c).2.1, (hagree c).2.2.1, (hagree c).2.2.2, aggregate_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
